-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x1600x161 : Shape := ⟨4, ![128, 1, 1600, 161]⟩
abbrev S161 : Shape := ⟨1, ![161]⟩
abbrev S_ : Shape := ⟨0, ![]⟩

class Facts : Prop where
  bcast_S_S128x1x1600x161 : S_.BroadcastsInDim S128x1x1600x161 (![] : Fin 0 → Fin S128x1x1600x161.rank)
  reducesTo_S128x1x1600x161_S_d0_1_2_3 : S128x1x1600x161.ReducesTo [0, 1, 2, 3] S_
  h_S_ : 0 < S_.numel
  bcast_S_S161 : S_.BroadcastsInDim S161 (![] : Fin 0 → Fin S161.rank)
  reducesTo_S161_S_d0 : S161.ReducesTo [0] S_

variable [Facts]

def fn {F : FTy → Type} [FloatOps F] (main_arg0 : FVec F S128x1x1600x161 .f32) (main_arg1 : FVec F S161 .f32) (main_arg2 : FVec F S161 .f32) : IVec S_ 1 :=
  let main_v0 : FVec F S128x1x1600x161 .f32 := Host.absf main_arg0
  let main_cst : FVec F S_ .f32 := constant S_ .f32 0x7F800000#32
  let main_v1 : FVec F S128x1x1600x161 .f32 := broadcastInDim S128x1x1600x161 ![] bcast_S_S128x1x1600x161 main_cst
  let main_v2 : IVec S128x1x1600x161 1 := cmpf .olt main_v0 main_v1
  let main_c : IVec S_ 1 := constantI S_ 1 1#1
  let main_v3 : IVec S_ 1 := (fun x v => Host.reduce IntOp.andi x v reducesTo_S128x1x1600x161_S_d0_1_2_3 h_S_) main_v2 main_c
  let main_v4 : FVec F S161 .f32 := Host.absf main_arg1
  let main_cst_0 : FVec F S_ .f32 := constant S_ .f32 0x7F800000#32
  let main_v5 : FVec F S161 .f32 := broadcastInDim S161 ![] bcast_S_S161 main_cst_0
  let main_v6 : IVec S161 1 := cmpf .olt main_v4 main_v5
  let main_c_1 : IVec S_ 1 := constantI S_ 1 1#1
  let main_v7 : IVec S_ 1 := (fun x v => Host.reduce IntOp.andi x v reducesTo_S161_S_d0 h_S_) main_v6 main_c_1
  let main_v8 : IVec S_ 1 := andi main_v3 main_v7
  let main_v9 : FVec F S161 .f32 := Host.absf main_arg2
  let main_cst_2 : FVec F S_ .f32 := constant S_ .f32 0x7F800000#32
  let main_v10 : FVec F S161 .f32 := broadcastInDim S161 ![] bcast_S_S161 main_cst_2
  let main_v11 : IVec S161 1 := cmpf .olt main_v9 main_v10
  let main_c_3 : IVec S_ 1 := constantI S_ 1 1#1
  let main_v12 : IVec S_ 1 := (fun x v => Host.reduce IntOp.andi x v reducesTo_S161_S_d0 h_S_) main_v11 main_c_3
  let main_v13 : IVec S_ 1 := andi main_v8 main_v12
  main_v13
-- ==== Kernel.lean ====
abbrev S128x1x1600x161 : Shape := ⟨4, ![128, 1, 1600, 161]⟩
abbrev S161 : Shape := ⟨1, ![161]⟩
abbrev S1x161 : Shape := ⟨2, ![1, 161]⟩
abbrev S128x161 : Shape := ⟨2, ![128, 161]⟩
abbrev S20608 : Shape := ⟨1, ![20608]⟩
abbrev S1x20608 : Shape := ⟨2, ![1, 20608]⟩
abbrev S1600x20608 : Shape := ⟨2, ![1600, 20608]⟩
abbrev S160x20608 : Shape := ⟨2, ![160, 20608]⟩

abbrev nBuf : Space → Nat
  | .hbm => 12
  | .vmem => 5
  | .smem => 0
  | _ => 0

abbrev bufTy : (tb : Table) → Fin (tcTables nBuf tb) → BufTy
  | .hbm, ⟨0, _⟩ => ⟨S128x1x1600x161, .f32⟩
  | .hbm, ⟨1, _⟩ => ⟨S161, .f32⟩
  | .hbm, ⟨2, _⟩ => ⟨S161, .f32⟩
  | .hbm, ⟨3, _⟩ => ⟨S161, .i1⟩
  | .hbm, ⟨4, _⟩ => ⟨S161, .f32⟩
  | .hbm, ⟨5, _⟩ => ⟨S1x161, .f32⟩
  | .hbm, ⟨6, _⟩ => ⟨S128x161, .f32⟩
  | .hbm, ⟨7, _⟩ => ⟨S20608, .f32⟩
  | .hbm, ⟨8, _⟩ => ⟨S1x20608, .f32⟩
  | .hbm, ⟨9, _⟩ => ⟨S1600x20608, .f32⟩
  | .hbm, ⟨10, _⟩ => ⟨S1600x20608, .f32⟩
  | .hbm, ⟨11, _⟩ => ⟨S128x1x1600x161, .f32⟩
  | .local _ .vmem, ⟨0, _⟩ => ⟨S160x20608, .f32⟩
  | .local _ .vmem, ⟨1, _⟩ => ⟨S160x20608, .f32⟩
  | .local _ .vmem, ⟨2, _⟩ => ⟨S1x20608, .f32⟩
  | .local _ .vmem, ⟨3, _⟩ => ⟨S160x20608, .f32⟩
  | .local _ .vmem, ⟨4, _⟩ => ⟨S160x20608, .f32⟩
  | _, _ => ⟨S128x1x1600x161, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x20608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x20608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S161_S1x161 : S161.ShapeCasts S1x161
  bcast_S1x161_S128x161_0_1 : S1x161.BroadcastsInDim S128x161 (![0, 1] : Fin 2 → Fin S128x161.rank)
  shapeCasts_S128x161_S20608 : S128x161.ShapeCasts S20608
  shapeCasts_S20608_S1x20608 : S20608.ShapeCasts S1x20608
  shapeCasts_S128x1x1600x161_S1600x20608 : S128x1x1600x161.ShapeCasts S1600x20608
  inb_S160x20608_S160x20608_0_0 : ∀ a, (![0, 0] : Fin 2 → Nat) a + S160x20608.size a ≤ S160x20608.size a
  h_S160x20608 : 0 < S160x20608.numel
  shapeCasts_S160x20608_S160x20608 : S160x20608.ShapeCasts S160x20608
  inb_S1x20608_S1x20608_0_0 : ∀ a, (![0, 0] : Fin 2 → Nat) a + S1x20608.size a ≤ S1x20608.size a
  h_S1x20608 : 0 < S1x20608.numel
  shapeCasts_S1x20608_S1x20608 : S1x20608.ShapeCasts S1x20608
  broadcasts_S1x20608_S160x20608 : S1x20608.Broadcasts S160x20608
  shapeCasts_S1600x20608_S128x1x1600x161 : S1600x20608.ShapeCasts S128x1x1600x161
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x20608.size a ≤ S1600x20608.size a
  hwx0_0 : ∀ i : grid0.Coords, EltTy.bits .f32 = 32 ∨ (Rect.block (s := S1600x20608) S160x20608.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x20608.size a ≤ S1x20608.size a
  hwx0_1 : ∀ i : grid0.Coords, EltTy.bits .f32 = 32 ∨ (Rect.block (s := S1x20608) S1x20608.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S160x20608.size a ≤ S1600x20608.size a
  hwx0_2 : ∀ i : grid0.Coords, EltTy.bits .f32 = 32 ∨ (Rect.block (s := S1600x20608) S160x20608.size (cc0_transform_2 i) (hinb0_2 i)).WholeWords (EltTy.packing .f32)

variable [Facts₀]

abbrev win0_0 : Pipeline.Window sig grid0 :=
  Pipeline.Window.ofSpec (Memref.whole main_v6) S160x20608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x20608.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S160x20608.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1x1600x161 : Shape := ⟨4, ![128, 1, 1600, 161]⟩
abbrev S161 : Shape := ⟨1, ![161]⟩
abbrev S1x1x1x161 : Shape := ⟨4, ![1, 1, 1, 161]⟩

abbrev nBuf : Space → Nat
  | .hbm => 8
  | .vmem => 0
  | .smem => 0
  | _ => 0

abbrev bufTy : (tb : Table) → Fin (tcTables nBuf tb) → BufTy
  | .hbm, ⟨0, _⟩ => ⟨S128x1x1600x161, .f32⟩
  | .hbm, ⟨1, _⟩ => ⟨S161, .f32⟩
  | .hbm, ⟨2, _⟩ => ⟨S161, .f32⟩
  | .hbm, ⟨3, _⟩ => ⟨S161, .i1⟩
  | .hbm, ⟨4, _⟩ => ⟨S161, .f32⟩
  | .hbm, ⟨5, _⟩ => ⟨S1x1x1x161, .f32⟩
  | .hbm, ⟨6, _⟩ => ⟨S128x1x1600x161, .f32⟩
  | .hbm, ⟨7, _⟩ => ⟨S128x1x1600x161, .f32⟩
  | _, _ => ⟨S128x1x1600x161, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S161_S1x1x1x161 : S161.ShapeCasts S1x1x1x161
  bcast_S1x1x1x161_S128x1x1600x161_0_1_2_3 : S1x1x1x161.BroadcastsInDim S128x1x1600x161 (![0, 1, 2, 3] : Fin 4 → Fin S128x1x1600x161.rank)

variable [Facts₀]

class Facts : Prop extends Facts₀ where

variable [Facts]
-- ==== Proof.Spec.lean ====
/-
  A per-channel keep mask multiplied into a four-axis array, and the same product computed on a lane-dense
  two-axis view of the array.

  The array `x` has axes (batch 128, 1, time 1600, channel 161). The mask of channel `f` is one where `u f < p f`
  and zero elsewhere (the comparison's bit read as a float); the result multiplies every entry of `x` by the mask
  of its channel, the last coordinate.

  The other road lays the same 32 972 800 entries out, in the same row-major order, as 1600 rows of 20608 lanes
  (20608 = 128 · 161), repeats the 161 masks 128 times along one row of 20608 lanes, multiplies every row by that
  row of masks, and lays the product out on four axes again. Because 161 divides 20608, the lane of an entry is
  congruent modulo 161 to its row-major position, hence to its channel: lane `l` of the repeated mask is the mask of
  channel `l mod 161`, and both roads give the same array (`relaid_eq`). Nothing but the position arithmetic is
  used: no property of the multiplication or of the comparison enters, so the statement holds for any float model.
-/
import Idealize.ShloMosaic.PureOps
import Idealize.ShloMosaic.Lib.ValueIdx
import Idealize.ShloMosaic.Lib.Pipeline.Value

noncomputable section

namespace Cert.ChannelMask

open Idealize.ShloMosaic Idealize.ShloMosaic.ValueIdx

/-- The array's four axes: batch, a unit axis, time, channel. -/
abbrev Sx : Shape := ⟨4, ![128, 1, 1600, 161]⟩
/-- One value per channel. -/
abbrev Sch : Shape := ⟨1, ![161]⟩
/-- The channel values as one row. -/
abbrev Srow : Shape := ⟨2, ![1, 161]⟩
/-- That row repeated 128 times. -/
abbrev Stile : Shape := ⟨2, ![128, 161]⟩
/-- The 128 repetitions end to end: 20608 lanes. -/
abbrev Slane : Shape := ⟨1, ![20608]⟩
/-- The same as one row of lanes. -/
abbrev Smask : Shape := ⟨2, ![1, 20608]⟩
/-- The lane-dense view of the array: 1600 rows of 20608 lanes. -/
abbrev Sdense : Shape := ⟨2, ![1600, 20608]⟩

variable {F : FTy → Type} [FloatOps F]

/-- The keep mask of channel `f`: the bit of `u f < p f` as a float. -/
def keep (u p : FVec F Sch .f32) (f : Fin 161) : F .f32 :=
  FloatOps.uitofp .f32 (FloatOps.cmpf .olt (u (ix1 f)) (p (ix1 f)))

/-- The result: every entry of `x` times the keep mask of its channel. -/
def masked (x : FVec F Sx .f32) (u p : FVec F Sch .f32) : FVec F Sx .f32 :=
  fun i => FloatOps.mulf (x i) (keep u p ⟨(i 3).val, (i 3).isLt⟩)

/-- On the lane-dense view: every row times the one row of masks, lane by lane. -/
def laneScaled (X : FVec F Sdense .f32) (M : FVec F Smask .f32) : FVec F Sdense .f32 :=
  fun j => FloatOps.mulf (X j) (M (ix2 (0 : Fin 1) (⟨(j 1).val, (j 1).isLt⟩ : Fin 20608)))

/-- The row of masks as it is assembled: the 161 masks as a row, the row repeated 128 times, the repetitions laid
    end to end, and that as one row of 20608 lanes. -/
def tiledMask (u p : FVec F Sch .f32) (h1 : Sch.ShapeCasts Srow)
    (h2 : Srow.BroadcastsInDim Stile (![0, 1] : Fin 2 → Fin Stile.rank))
    (h3 : Stile.ShapeCasts Slane) (h4 : Slane.ShapeCasts Smask) : FVec F Smask .f32 :=
  shapeCast Smask (shapeCast Slane (broadcastInDim Stile (![0, 1] : Fin 2 → Fin Stile.rank) h2
    (shapeCast Srow (uitofp .f32 (cmpf .olt u p)) h1)) h3) h4

/-- Lane `l` of the assembled row is the mask of channel `l mod 161`: lane `l` is entry `l` of the repetitions laid end
    to end, which is column `l mod 161` of repetition `l / 161`, and every repetition is the row of masks. -/
theorem tiledMask_apply (u p : FVec F Sch .f32) (h1 : Sch.ShapeCasts Srow)
    (h2 : Srow.BroadcastsInDim Stile (![0, 1] : Fin 2 → Fin Stile.rank))
    (h3 : Stile.ShapeCasts Slane) (h4 : Slane.ShapeCasts Smask) (l : Fin 20608) :
    tiledMask u p h1 h2 h3 h4 (ix2 (0 : Fin 1) l) = keep u p ⟨l.val % 161, Nat.mod_lt _ (by decide)⟩ := by
  have hl : l.val < 20608 := l.isLt
  have hq : l.val / 161 < 128 := by omega
  have hf : l.val % 161 < 161 := Nat.mod_lt _ (by decide)
  unfold tiledMask
  refine (shapeCast_apply _ h4 (ix2 (0 : Fin 1) l) (ix1 l) ?_).trans ?_
  · rw [Shape.rowMajor_val_one, Shape.rowMajor_val_two]
    show l.val = 0 * 20608 + l.val
    omega
  refine (shapeCast_apply _ h3 (ix1 l) (ix2 (⟨l.val / 161, hq⟩ : Fin 128) (⟨l.val % 161, hf⟩ : Fin 161)) ?_).trans ?_
  · rw [Shape.rowMajor_val_one, Shape.rowMajor_val_two]
    show l.val / 161 * 161 + l.val % 161 = l.val
    omega
  refine (broadcastInDim_apply (![0, 1] : Fin 2 → Fin Stile.rank) h2 _
    (ix2 (⟨l.val / 161, hq⟩ : Fin 128) (⟨l.val % 161, hf⟩ : Fin 161))
    (ix2 (0 : Fin 1) (⟨l.val % 161, hf⟩ : Fin 161)) (fun a => ?_)).trans ?_
  · match a with
    | ⟨0, _⟩ => show 0 = if (1 : Nat) = 1 then 0 else l.val / 161; rw [if_pos rfl]
    | ⟨1, _⟩ => show l.val % 161 = if (161 : Nat) = 1 then 0 else l.val % 161; rw [if_neg (by decide)]
  refine (shapeCast_apply _ h1 (ix2 (0 : Fin 1) (⟨l.val % 161, hf⟩ : Fin 161)) (ix1 (⟨l.val % 161, hf⟩ : Fin 161)) ?_).trans ?_
  · rw [Shape.rowMajor_val_one, Shape.rowMajor_val_two]
    show l.val % 161 = 0 * 161 + l.val % 161
    omega
  rfl

/-- Both roads give one array. The entry at (b, 0, t, f) has row-major position `pos = (b · 1600 + t) · 161 + f`; on the
    lane-dense view it sits in row `pos / 20608`, lane `pos mod 20608`, and since 161 divides 20608 the lane is
    congruent to `f` modulo 161: the lane's mask is the mask of channel `f`. -/
theorem relaid_eq (x : FVec F Sx .f32) (u p : FVec F Sch .f32) (hx : Sx.ShapeCasts Sdense)
    (hback : Sdense.ShapeCasts Sx) (M : FVec F Smask .f32)
    (hM : ∀ l : Fin 20608, M (ix2 (0 : Fin 1) l) = keep u p ⟨l.val % 161, Nat.mod_lt _ (by decide)⟩) :
    shapeCast Sx (laneScaled (shapeCast Sdense x hx) M) hback = masked x u p := by
  funext i
  have h0 : (i 0).val < 128 := (i 0).isLt
  have h1 : (i 1).val < 1 := (i 1).isLt
  have h2 : (i 2).val < 1600 := (i 2).isLt
  have h3 : (i 3).val < 161 := (i 3).isLt
  generalize hpos : (((i 0).val * 1 + (i 1).val) * 1600 + (i 2).val) * 161 + (i 3).val = pos
  have hr : pos / 20608 < 1600 := by omega
  have hc : pos % 20608 < 20608 := Nat.mod_lt _ (by decide)
  have hk : ((Sdense.rowMajor (ix2 (⟨pos / 20608, hr⟩ : Fin 1600) (⟨pos % 20608, hc⟩ : Fin 20608))).val
      = (Sx.rowMajor i).val) := by
    rw [Shape.rowMajor_val_two, Shape.rowMajor_val_four]
    show pos / 20608 * 20608 + pos % 20608 = (((i 0).val * 1 + (i 1).val) * 1600 + (i 2).val) * 161 + (i 3).val
    omega
  refine (shapeCast_apply _ hback i (ix2 (⟨pos / 20608, hr⟩ : Fin 1600) (⟨pos % 20608, hc⟩ : Fin 20608)) hk).trans ?_
  show FloatOps.mulf (shapeCast Sdense x hx (ix2 (⟨pos / 20608, hr⟩ : Fin 1600) (⟨pos % 20608, hc⟩ : Fin 20608)))
      (M (ix2 (0 : Fin 1) (⟨pos % 20608, hc⟩ : Fin 20608)))
    = FloatOps.mulf (x i) (keep u p ⟨(i 3).val, (i 3).isLt⟩)
  rw [shapeCast_apply x hx _ i hk.symm, hM]
  exact congrArg (fun f => FloatOps.mulf (x i) (keep u p f)) (Fin.ext (by show pos % 20608 % 161 = (i 3).val; omega))

end Cert.ChannelMask

end
-- ==== Proof.RefIsMasked.lean ====
/-
  The reference computes `masked`: it compares `u` with `p` channel by channel, reads the bit as a float, lays the 161
  values out as a (1, 1, 1, 161) array, repeats them along the batch and time axes, and multiplies into `x`. Read at
  an index (b, 0, t, f), the repeated array holds the value of channel `f`: the product is `x (b, 0, t, f)` times the
  keep mask of channel `f`.
-/
import proofs.«112467_j5643587027453_2_alg».proof.Proof.Gen.ReferenceIdeal.Read
import proofs.«112467_j5643587027453_2_alg».proof.Proof.Spec

noncomputable section

namespace Cert.ChannelMask.Ref

open Idealize.ShloMosaic Idealize.ShloMosaic.ValueIdx Cert.ChannelMask
open Cert.ReferenceIdeal Cert.ReferenceIdeal.Read

variable {F : FTy → Type} [FloatOps F]

/-- The reference's last stage is `masked` of the three arguments. -/
theorem val_eq_masked (x : FVec F Sx .f32) (u p : FVec F Sch .f32) :
    val_main_v4 (F := F) x u p = masked x u p := by
  funext i
  have e : idx_main_v2 (idx_main_v3 i) = ix1 (⟨(i 3).val, (i 3).isLt⟩ : Fin 161) :=
    funext fun a => Fin.ext (by
      match a with
      | ⟨0, _⟩ => show ((0 * 1 + 0) * 1 + 0) * 161 + (i 3).val = (i 3).val; omega)
  rw [val_main_v4_apply, val_main_v3_apply, val_main_v2_apply, val_main_v1_apply, val_main_v0_apply, e]
  rfl

end Cert.ChannelMask.Ref

end
-- ==== Proof.Entry.lean ====
/-
  What the region finds in its two operand arrays when it is entered. Before the region the program lays `x` out
  lane-dense, and assembles the row of masks: it compares `u` with `p`, reads the bits as floats, writes the 161
  values as a row, repeats the row 128 times, and lays the repetitions end to end as one row of 20608 lanes.
-/
import proofs.«112467_j5643587027453_2_alg».proof.Proof.Gen.KernelIdeal.Frame
import proofs.«112467_j5643587027453_2_alg».proof.Proof.Spec
import Idealize.ShloMosaic.Lib.StableHlo.Run

noncomputable section

namespace Cert.ChannelMask.Kernel

open Idealize.ShloMosaic Idealize.ShloMosaic.TcCoe Idealize.SL.Sem Idealize.ShloMosaic.StableHlo
open Cert.KernelIdeal Cert.KernelIdeal.Gen Cert.ChannelMask

variable {F : FTy → Type} [FloatOps F]
variable (m : (ℓ : Loc nD τ sig) → Buf (Elt F) ℓ)

/-- The first operand at the region's entry is `x` laid out as 1600 rows of 20608 lanes. -/
theorem entry_dense (c : Dev nD) :
    (V m c main_v6 : S1600x20608.Idx → Elt F .f32)
      = shapeCast Sdense (m ((c : Thread nD τ).loc main_arg0) : FVec F Sx .f32) shapeCasts_S128x1x1600x161_S1600x20608 := by
  show StableHlo.after hostOps0 (fun b => m (c, b)) (Proc.devRef .tc main_v6) = _
  after_results
  rfl

/-- The second operand at the region's entry is the assembled row of masks of `u` and `p`. -/
theorem entry_mask (c : Dev nD) :
    (V m c main_v5 : S1x20608.Idx → Elt F .f32)
      = tiledMask (m ((c : Thread nD τ).loc main_arg1) : FVec F Sch .f32) (m ((c : Thread nD τ).loc main_arg2) : FVec F Sch .f32)
          shapeCasts_S161_S1x161 bcast_S1x161_S128x161_0_1 shapeCasts_S128x161_S20608 shapeCasts_S20608_S1x20608 := by
  show StableHlo.after hostOps0 (fun b => m (c, b)) (Proc.devRef .tc main_v5) = _
  after_results
  rfl

end Cert.ChannelMask.Kernel

end
-- ==== Proof.Block.lean ====
/-
  One grid point of the region. The ten points take the ten consecutive groups of 160 rows of the lane-dense view;
  every point reads the whole row of masks. The body multiplies its 160 rows by the row of masks, lane by lane, so
  what a point writes back is its 160 rows of `laneScaled` of the two operand arrays; the ten groups of rows fill
  the 1600 rows, so the region's result array ends holding `laneScaled` of the operand arrays.
-/
import proofs.«112467_j5643587027453_2_alg».proof.Proof.Gen.KernelIdeal.Frame
import proofs.«112467_j5643587027453_2_alg».proof.Proof.Spec
import Idealize.ShloMosaic.Lib.Pipeline.Value
import Idealize.ShloMosaic.Lib.ValueIdx

noncomputable section

namespace Cert.ChannelMask.Kernel

open Idealize.ShloMosaic Idealize.ShloMosaic.TcCoe Idealize.SL.Sem Idealize.ShloMosaic.ValueIdx
open Idealize.ShloMosaic.Pipeline (Dat)
open Cert.KernelIdeal Cert.KernelIdeal.Gen Cert.ChannelMask

variable {F : FTy → Type} [FloatOps F]
variable (m : (ℓ : Loc nD τ sig) → Buf (Elt F) ℓ)

theorem offsets_zero : (![0, 0] : Fin 2 → Nat) = fun _ => 0 := funext fun a => by fin_cases a <;> rfl

/-- The body's product, entry by entry: the entry of the 160 rows times the mask of the entry's lane (the one row of
    masks is repeated down the 160 rows). -/
theorem product_eq (x0 : Vec F S160x20608 .f32) (x1 : Vec F S1x20608 .f32) :
    k0_pay1 x0 x1 = fun y => FloatOps.mulf (x0 y) (x1 (ix2 (0 : Fin 1) (⟨(y 1).val, (y 1).isLt⟩ : Fin 20608))) := by
  funext y
  unfold k0_pay1
  show FloatOps.mulf (shapeCast S160x20608 x0 shapeCasts_S160x20608_S160x20608 y)
    (broadcastTo S160x20608 (shapeCast S1x20608 x1 shapeCasts_S1x20608_S1x20608) broadcasts_S1x20608_S160x20608 y) = _
  rw [shapeCast_self, shapeCast_self]
  refine congrArg (FloatOps.mulf (x0 y)) (broadcastTo_apply x1 _ y _ (fun a => ?_))
  match a with
  | ⟨0, _⟩ => show 0 = if (1 : Nat) = 1 then 0 else (y 0).val; rw [if_pos rfl]
  | ⟨1, _⟩ => show (y 1).val = if (20608 : Nat) = 1 then 0 else (y 1).val; rw [if_neg (by decide)]

/-- Where the blocks sit: at point `t` the first operand's block and the result's block are both the `t`-th group of
    160 rows, all lanes; the masks' block is always the whole row. -/
theorem block_indices : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point `t` writes back is its block of `laneScaled` of the operand arrays as the region finds them. -/
theorem flushed_eq (c : Dev nD) (t : Fin cfg0.N) :
    (dats m 0 c).flushed 2 t
      = ((cfg0.win 2).blk t).view.read (Elt F) (laneScaled (V m c main_v6) (V m c main_v5)) := by
  show (cfg0.win 2).cut (grid0.coords t) ((dats m 0 c).after 2 t) = _
  rw [after0_2]
  unfold out0_2
  rw [View.canon_unit_zero offsets_zero]
  simp only [View.ld_unit_zero (S := S160x20608) offsets_zero, View.ld_unit_zero (S := S1x20608) offsets_zero]
  rw [product_eq]
  obtain ⟨e0, e1, e2, e3, e4, e5⟩ := block_indices t
  funext j
  rw [View.read_apply]
  unfold laneScaled
  show FloatOps.mulf _ _ = FloatOps.mulf _ _
  refine congrArg₂ FloatOps.mulf ?_ ?_
  · show V m c main_v6 (((cfg0.win 0).blk t).view.emb ((cfg0.win 2).xinj (grid0.coords t) j))
      = V m c main_v6 (((cfg0.win 2).blk t).view.emb j)
    refine congrArg (V m c main_v6) (funext fun a => Fin.ext ?_)
    match a with
    | ⟨0, _⟩ =>
      show win0_0.index t (0 : Fin 2) * 160 + 1 * (j 0).val = win0_2.index t (0 : Fin 2) * 160 + 1 * (j 0).val
      omega
    | ⟨1, _⟩ =>
      show win0_0.index t (1 : Fin 2) * 20608 + 1 * (j 1).val = win0_2.index t (1 : Fin 2) * 20608 + 1 * (j 1).val
      omega
  · show V m c main_v5 (((cfg0.win 1).blk t).view.emb (ix2 (0 : Fin 1) (⟨(j 1).val, _⟩ : Fin 20608)))
      = V m c main_v5 (ix2 (0 : Fin 1) (⟨((((cfg0.win 2).blk t).view.emb j) 1).val, _⟩ : Fin 20608))
    refine congrArg (V m c main_v5) (funext fun a => Fin.ext ?_)
    match a with
    | ⟨0, _⟩ =>
      show win0_1.index t (0 : Fin 2) * 1 + 1 * 0 = 0
      omega
    | ⟨1, _⟩ =>
      show win0_1.index t (1 : Fin 2) * 20608 + 1 * (j 1).val = win0_2.index t (1 : Fin 2) * 20608 + 1 * (j 1).val
      omega

/-- An entry of the result array lies in point `t`'s block exactly when its row is in the `t`-th group of 160 rows
    (the lanes are all there). -/
theorem mem_block (t : Fin cfg0.N) (i : S1600x20608.Idx) :
    i ∈ ((cfg0.win 2).blk t).view.set ↔ ∀ a : Fin 2, win0_2.index t a * S160x20608.size a ≤ (i a).val
      ∧ (i a).val < win0_2.index t a * S160x20608.size a + S160x20608.size a := by
  show i ∈ ((View.whole main_v7).slice (win0_2.rect t)).set ↔ _
  rw [View.set_slice_whole, Rect.mem_set_unit]
  exact Iff.rfl

/-- Every entry of the result array is in some point's block: row `r` is in the group of point `r / 160`. -/
theorem covered (i : S1600x20608.Idx) :
    ∃ t : Fin cfg0.N, (cfg0.win 2).flush t = true ∧ i ∈ ((cfg0.win 2).blk t).view.set := by
  have hi0 : (i 0).val < 1600 := (i 0).isLt
  have hi1 : (i 1).val < 20608 := (i 1).isLt
  have hN : cfg0.N = 10 := N_0
  obtain ⟨t, ht⟩ : ∃ t : Fin cfg0.N, t.val = (i 0).val / 160 := ⟨⟨(i 0).val / 160, by rw [hN]; omega⟩, rfl⟩
  obtain ⟨e0, e1, e2, e3, e4, e5⟩ := block_indices t
  refine ⟨t, flush0_2 t, ?_⟩
  rw [mem_block]
  intro a
  match a with
  | ⟨0, _⟩ =>
    show win0_2.index t (0 : Fin 2) * 160 ≤ (i 0).val ∧ (i 0).val < win0_2.index t (0 : Fin 2) * 160 + 160
    omega
  | ⟨1, _⟩ =>
    show win0_2.index t (1 : Fin 2) * 20608 ≤ (i 1).val ∧ (i 1).val < win0_2.index t (1 : Fin 2) * 20608 + 20608
    omega

/-- The region's result array after the last point: `laneScaled` of the two operand arrays. -/
theorem region_result (c : Dev nD) :
    (dats m 0 c).arrAt 2 cfg0.N = laneScaled (V m c main_v6) (V m c main_v5) :=
  (dats m 0 c).arrAt_eq_of_cover 2 _ (fun t _ => flushed_eq m c t) covered

end Cert.ChannelMask.Kernel

end
-- ==== Proof.Result.lean ====
/-
  The kernel program's result. After the region the program lays the region's result array out on four axes again.
  The region's result is `laneScaled` of `x` laid out lane-dense and of the assembled row of masks, so by the position
  arithmetic of `relaid_eq` the program's result is `masked x u p`.
-/
import proofs.«112467_j5643587027453_2_alg».proof.Proof.Entry
import proofs.«112467_j5643587027453_2_alg».proof.Proof.Block
import Idealize.ShloMosaic.Lib.StableHlo.Run

noncomputable section

namespace Cert.ChannelMask.Kernel

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.ChannelMask

variable {F : FTy → Type} [FloatOps F]
variable (m : (ℓ : Loc nD τ sig) → Buf (Elt F) ℓ) (ρ : Dev nD → PrngReg)

/-- The program's result buffer after the lines that follow the region: the region's result array on four axes. -/
theorem tail_eq (c : Dev nD) :
    (Pipeline.afterTail₀ cfgs (dats m) 0 (V0 m) [hostOps1] c main_v8 : S128x1x1600x161.Idx → Elt F .f32)
      = shapeCast Sx ((dats m 0 c).arrAt 2 cfg0.N : FVec F Sdense .f32) shapeCasts_S1600x20608_S128x1x1600x161 := by
  unfold Pipeline.afterTail₀
  show StableHlo.after hostOps1 _ (Proc.devRef .tc main_v8) = _
  after_results
  have e := Pipeline.withArrays_arr spec0 launch0.win.arr_inj c (V0 m c) (fun w => (dats m 0 c).arrAt w (cfgs 0).N) 2
  exact congrArg (fun A : FVec F Sdense .f32 => shapeCast Sx A shapeCasts_S1600x20608_S128x1x1600x161) e

/-- The program's result is `masked` of its three arguments: the region's result is `laneScaled` of `x` laid out
    lane-dense and of the assembled row of masks, and laying that out on four axes gives `masked`. -/
theorem result_eq (c : Dev nD) :
    (Pipeline.afterTail₀ cfgs (dats m) 0 (V0 m) [hostOps1] c main_v8 : S128x1x1600x161.Idx → Elt F .f32)
      = masked (m ((c : Thread nD τ).loc main_arg0)) (m ((c : Thread nD τ).loc main_arg1)) (m ((c : Thread nD τ).loc main_arg2)) := by
  rw [tail_eq, region_result, entry_dense, entry_mask]
  exact relaid_eq _ _ _ _ _ _ (fun l => tiledMask_apply _ _ _ _ _ _ l)

/-- Every weakly fair execution of the kernel program terminates without a fault, with its result buffer at
    `masked` of the three arguments and the arguments as they were. -/
theorem run : θ_run defs (onTc (τ := τ) (main (F := F))) ⟨m, fun _ => 0, ρ⟩ fun r => ∀ c : Dev nD,
      r.2.mem ((c.tc : Thread nD τ).loc main_v8)
        = masked (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ChannelMask.Kernel

end
-- ==== Proof.lean ====
/-
  A per-channel keep mask multiplied into `x : f32[128, 1, 1600, 161]`: the kernel program against the reference.

  Both programs compute, for every entry (b, 0, t, f), the product of `x (b, 0, t, f)` with the mask of channel `f`,
  the bit of `u f < p f` read as a float. The reference repeats the 161 masks along the batch and time axes and
  multiplies. The kernel program lays `x` out as 1600 rows of 20608 = 128 · 161 lanes, repeats the masks 128 times
  along one row of lanes, multiplies ten groups of 160 rows by that row, one group per grid point, and lays the
  product out on four axes again. The two agree because 161 divides 20608: an entry's lane is congruent modulo 161
  to its row-major position, hence to its channel (Spec.lean, `relaid_eq`). No law of the arithmetic is used, only
  where each entry sits, so the precondition is never opened.

  The modules: Spec.lean (the two roads and the position arithmetic), RefIsMasked.lean (the reference's result),
  Entry.lean (what the region finds in its operands), Block.lean (one grid point, and the region's result array),
  Result.lean (the kernel program's result and run). Here: the three frames, the idealization (the kernel's text is
  read unchanged, nothing to state) and the equality of the two results.
-/
import proofs.«112467_j5643587027453_2_alg».proof.Defs
import proofs.«112467_j5643587027453_2_alg».proof.Proof.Gen.Kernel
import proofs.«112467_j5643587027453_2_alg».proof.Proof.Gen.Kernel.Skeleton
import proofs.«112467_j5643587027453_2_alg».proof.Proof.Gen.Kernel.Launch
import proofs.«112467_j5643587027453_2_alg».proof.Proof.Gen.Kernel.Points
import proofs.«112467_j5643587027453_2_alg».proof.Proof.Gen.Kernel.Frame
import proofs.«112467_j5643587027453_2_alg».proof.Proof.Gen.KernelIdeal
import proofs.«112467_j5643587027453_2_alg».proof.Proof.Gen.KernelIdeal.Skeleton
import proofs.«112467_j5643587027453_2_alg».proof.Proof.Gen.KernelIdeal.Launch
import proofs.«112467_j5643587027453_2_alg».proof.Proof.Gen.KernelIdeal.Points
import proofs.«112467_j5643587027453_2_alg».proof.Proof.Gen.KernelIdeal.Frame
import proofs.«112467_j5643587027453_2_alg».proof.Proof.Gen.ReferenceIdeal
import proofs.«112467_j5643587027453_2_alg».proof.Proof.Gen.ReferenceIdeal.Run
import proofs.«112467_j5643587027453_2_alg».proof.Proof.Gen.ReferenceIdeal.Read
import proofs.«112467_j5643587027453_2_alg».proof.Proof.Gen.Pre_finite_inputs
import proofs.«112467_j5643587027453_2_alg».proof.Proof.RefIsMasked
import proofs.«112467_j5643587027453_2_alg».proof.Proof.Result
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as they were: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with `x` times the keep mask of each entry's channel: the kernel
    program by the position arithmetic of its lane-dense layout, the reference by reading its repeated masks at an
    index; the arguments of the two agree. -/
theorem algebraic : Cert.algebraic_KernelIdeal_ReferenceIdeal := by
  intro m ρ m' ρ' _ hagree
  refine ⟨_, Cert.ChannelMask.Kernel.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ChannelMask.Ref.val_eq_masked,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
